-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S32x2048x64 : Shape := ⟨3, ![32, 2048, 64]⟩
abbrev S1x512x64 : Shape := ⟨3, ![1, 512, 64]⟩
abbrev S1x2048x64 : Shape := ⟨3, ![1, 2048, 64]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 8
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S32x2048x64, .f32⟩
  | .hbm, ⟨4, _⟩ => ⟨S32x2048x64, .f32⟩
  | .hbm, ⟨5, _⟩ => ⟨S32x2048x64, .f32⟩
  | .hbm, ⟨6, _⟩ => ⟨S32x2048x64, .f32⟩
  | .hbm, ⟨7, _⟩ => ⟨S2x16x2048x64, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x512x64, .f32⟩
  | .local _ .vmem, ⟨7, _⟩ => ⟨S1x512x64, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S2x16x2048x64_S32x2048x64 : S2x16x2048x64.ShapeCasts S32x2048x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  bitsLt_bf16_f32 : FTy.bits .bf16 < FTy.bits .f32
  reduces_S512x2048_S512 : S512x2048.Reduces [1] S512
  shapeCasts_S512_S512x1 : S512.ShapeCasts S512x1
  broadcasts_S512x1_S512x2048 : S512x1.Broadcasts S512x2048
  shapeCasts_S512x64_S1x512x64 : S512x64.ShapeCasts S1x512x64
  shapeCasts_S32x2048x64_S2x16x2048x64 : S32x2048x64.ShapeCasts S2x16x2048x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S32x2048x64.size a
  hwx0_0 : ∀ i : grid0.Coords, EltTy.bits .f32 = 32 ∨ (Rect.block (s := S32x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S32x2048x64.size a
  hwx0_3 : ∀ i : grid0.Coords, EltTy.bits .f32 = 32 ∨ (Rect.block (s := S32x2048x64) S1x512x64.size (cc0_transform_3 i) (hinb0_3 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S_ : Shape := ⟨0, ![]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S_, .f32⟩
  | .hbm, ⟨4, _⟩ => ⟨S2x16x2048x64, .f32⟩
  | .hbm, ⟨5, _⟩ => ⟨S2x16x2048x64, .f32⟩
  | .hbm, ⟨6, _⟩ => ⟨S2x16x2048x2048, .f32⟩
  | .hbm, ⟨7, _⟩ => ⟨S_, .f32⟩
  | .hbm, ⟨8, _⟩ => ⟨S2x16x2048, .f32⟩
  | .hbm, ⟨9, _⟩ => ⟨S_, .f32⟩
  | .hbm, ⟨10, _⟩ => ⟨S2x16x2048, .f32⟩
  | .hbm, ⟨11, _⟩ => ⟨S2x16x2048, .f32⟩
  | .hbm, ⟨12, _⟩ => ⟨S2x16x2048x1, .f32⟩
  | .hbm, ⟨13, _⟩ => ⟨S2x16x2048x2048, .f32⟩
  | .hbm, ⟨14, _⟩ => ⟨S2x16x2048x2048, .f32⟩
  | .hbm, ⟨15, _⟩ => ⟨S2x16x2048x2048, .f32⟩
  | .hbm, ⟨16, _⟩ => ⟨S_, .f32⟩
  | .hbm, ⟨17, _⟩ => ⟨S2x16x2048, .f32⟩
  | .hbm, ⟨18, _⟩ => ⟨S2x16x2048x1, .f32⟩
  | .hbm, ⟨19, _⟩ => ⟨S2x16x2048x2048, .f32⟩
  | .hbm, ⟨20, _⟩ => ⟨S2x16x2048x2048, .f32⟩
  | .hbm, ⟨21, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S2x16x2048x64 : S_.BroadcastsInDim S2x16x2048x64 (![] : Fin 0 → Fin S2x16x2048x64.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Spec.lean ====
/-
  Scaled dot-product attention for one query row, on the extended reals.

  For a query row q (64 entries) and a head's key and value matrices K, V (2048 rows of 64 entries):
    score k  = Σ_d (q d · 1/8) · K k d              the scaled inner product with key row k
    rowMax   = max over k of score k, from −∞        the row's largest score
    weight k = exp (score k − rowMax)                the unnormalised softmax weight
    total    = Σ_k weight k
    out d    = Σ_k (weight k / total) · V k d        the softmax-weighted sum of the value rows
  The two constants are kept as the words that denote them; the only facts used about them are that the
  quotient by the word of 8 is the product with the word of 1/8, and that the maximum with the word of −∞
  is the identity.
-/
import Idealize.ShloMosaic.PureOps.Ideal
import Idealize.ShloMosaic.PureOps.Ideal.Laws
import Idealize.ShloMosaic.Lib.ValueIdx

noncomputable section

open scoped BigOperators

namespace Cert.Attention

open Idealize.ShloMosaic

/-- The extended real the word of −∞ denotes. -/
abbrev negInf : EReal := Ideal.ofBits .f32 0xFF800000#32
/-- The extended real the word of 0.125 denotes. -/
abbrev eighth : EReal := Ideal.ofBits .f32 0x3E000000#32

/-- The scaled inner product of the query row with key row k. -/
def score (q : Fin 64 → EReal) (K : Fin 2048 → Fin 64 → EReal) (k : Fin 2048) : EReal :=
  ∑ d : Fin 64, (q d * eighth) * K k d

/-- The largest score of the row, as the fold of max from −∞ over the keys. -/
def rowMax (q : Fin 64 → EReal) (K : Fin 2048 → Fin 64 → EReal) : EReal :=
  (Finset.univ : Finset (Fin 2048)).fold max negInf (score q K)

/-- The unnormalised softmax weight of key k. -/
def weight (q : Fin 64 → EReal) (K : Fin 2048 → Fin 64 → EReal) (k : Fin 2048) : EReal :=
  Ideal.exp (score q K k - rowMax q K)

/-- The sum of the row's weights. -/
def total (q : Fin 64 → EReal) (K : Fin 2048 → Fin 64 → EReal) : EReal :=
  ∑ k : Fin 2048, weight q K k

/-- Entry d of the attention output for the query row: the value rows weighted by the softmax of the scores. -/
def attnRow (q : Fin 64 → EReal) (K V : Fin 2048 → Fin 64 → EReal) (d : Fin 64) : EReal :=
  ∑ k : Fin 2048, Ideal.div (weight q K k) (total q K) * V k d

/-- The attention output over whole [2, 16, 2048, 64] arrays (batch, head, position, feature): entry (b, h, q, d) is
    the row function of query row (b, h, q) and of head (b, h)'s key and value matrices. -/
def G4 (Q K V : (⟨4, ![2, 16, 2048, 64]⟩ : Shape).Idx → EReal) : (⟨4, ![2, 16, 2048, 64]⟩ : Shape).Idx → EReal :=
  fun i => attnRow (fun d => Q (ValueIdx.ix4 (n0 := 2) (n1 := 16) (n2 := 2048) (n3 := 64) (i 0) (i 1) (i 2) d))
    (fun k d => K (ValueIdx.ix4 (n0 := 2) (n1 := 16) (n2 := 2048) (n3 := 64) (i 0) (i 1) k d))
    (fun k d => V (ValueIdx.ix4 (n0 := 2) (n1 := 16) (n2 := 2048) (n3 := 64) (i 0) (i 1) k d)) (i 3)

/-- The same over the arrays with batch and head merged into one axis of 32 heads. -/
def G3 (Q K V : (⟨3, ![32, 2048, 64]⟩ : Shape).Idx → EReal) : (⟨3, ![32, 2048, 64]⟩ : Shape).Idx → EReal :=
  fun i => attnRow (fun d => Q (ValueIdx.ix3 (n0 := 32) (n1 := 2048) (n2 := 64) (i 0) (i 1) d))
    (fun k d => K (ValueIdx.ix3 (n0 := 32) (n1 := 2048) (n2 := 64) (i 0) k d))
    (fun k d => V (ValueIdx.ix3 (n0 := 32) (n1 := 2048) (n2 := 64) (i 0) k d)) (i 2)

/-- The word 0x41000000 denotes 8. -/
theorem ofBits_eight : Ideal.ofBits .f32 0x41000000#32 = ((8 : ℝ) : EReal) := by
  simp [Ideal.ofBits, Ideal.ieee, -EReal.coe_mul]; norm_num

/-- The word 0x3E000000 denotes 1/8. -/
theorem ofBits_eighth : eighth = ((1 / 8 : ℝ) : EReal) := by
  simp [eighth, Ideal.ofBits, Ideal.ieee, -EReal.coe_mul]; norm_num

/-- Dividing by 8 is multiplying by 1/8, on every extended real. -/
theorem div_eight (x : EReal) : Ideal.div x (Ideal.ofBits .f32 0x41000000#32) = x * eighth := by
  rw [ofBits_eight, ofBits_eighth]
  exact Ideal.div_coe (by norm_num) x

/-- The maximum with −∞ is the identity. -/
theorem max_negInf (x : EReal) : max negInf x = x := by
  simp [negInf, Ideal.ofBits, Ideal.ieee]

end Cert.Attention

end
-- ==== Proof.LibKeepdims.lean ====
/-
  Layout operations of a row reduction that keeps its axis, read at an index given by coordinates: a vector
  [a] cast to a column [a, 1]; a column [a, 1] broadcast over b lanes to [a, b]; the index a reduction over the
  last axis of a matrix puts back; and the float sum over a matrix's last axis, at exact arithmetic, as the sum
  of a row. Each is the library's general lemma with the per-axis arithmetic discharged for these shapes.
-/
import Idealize.ShloMosaic.Lib.ValueLayout
import Idealize.ShloMosaic.PureOps.Ideal.Laws

namespace Cert.Lib.Keepdims

open Idealize.ShloMosaic Idealize.ShloMosaic.ValueIdx

variable {α : Type}

/-- An [a] array cast to the column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast over b lanes to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction over a matrix's last axis puts back over row p, at coordinate k, is (p, k). -/
theorem lift_lastAxis {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A float sum over a matrix's last axis from the zero word, at exact arithmetic, is at row p the sum of that
    row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lastAxis h p k)

end Cert.Lib.Keepdims
-- ==== Proof.LibGramDot.lean ====
/-
  A matrix product with the RIGHT factor transposed, read at an entry. For the dimension numbers of `M×K` by `N×K`
  contracting the two last axes (`DotDims.transposedRhs M K N`: what `A · Bᵀ` prints as when the matrix unit consumes the
  transposed operand natively), the sum over the one-axis contraction index of any function of the two operand indices is the
  sum over `k : Fin K` of that function at `(p, k)` and `(c, k)` (`sum_transposedRhs`). Hence, on the extended reals, a
  `tpu.matmul` into the zero accumulator read at `(p, c)` is `∑ k, A (p, k) * B (c, k)` (`matmul_transposedRhs_zero_apply`),
  for every `M`, `K`, `N`; with `B = A` it is the Gram matrix of the rows of `A`.
-/
import Idealize.ShloMosaic.PureOps.Ideal.Laws
import Idealize.ShloMosaic.Lib.ValueIdx

noncomputable section

open scoped BigOperators

namespace Cert.Lib.GramDot

open Idealize.ShloMosaic Idealize.ShloMosaic.ValueIdx

variable {M K N : Nat}

/-- The left operand's index at output `(p, c)` and contraction coordinate `k` is `(p, k)`. -/
theorem lhsIdx_transposedRhs (p : Fin M) (c : Fin N) (k : Fin K) :
    (DotDims.transposedRhs M K N).lhsIdx (ix2 p c) ((contrEquiv1 (DotDims.transposedRhs M K N) K rfl rfl).symm k) = ix2 p k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single rfl (ix2 p c) _).trans hk

/-- The right operand's index at output `(p, c)` and contraction coordinate `k` is `(c, k)`. -/
theorem rhsIdx_transposedRhs (p : Fin M) (c : Fin N) (k : Fin K) :
    (DotDims.transposedRhs M K N).rhsIdx (ix2 p c) ((contrEquiv1 (DotDims.transposedRhs M K N) K rfl rfl).symm k) = ix2 c k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single rfl (ix2 p c) _).trans hk

/-- A sum over the contraction index, of any function of the two operand indices, is the sum over the shared axis. -/
theorem sum_transposedRhs {β : Type*} [AddCommMonoid β]
    (f : (⟨2, ![M, K]⟩ : Shape).Idx → (⟨2, ![N, K]⟩ : Shape).Idx → β) (p : Fin M) (c : Fin N) :
    ∑ q : (DotDims.transposedRhs M K N).contr.Idx,
        f ((DotDims.transposedRhs M K N).lhsIdx (ix2 p c) q) ((DotDims.transposedRhs M K N).rhsIdx (ix2 p c) q)
      = ∑ k : Fin K, f (ix2 p k) (ix2 c k) := by
  rw [← Equiv.sum_comp (contrEquiv1 (DotDims.transposedRhs M K N) K rfl rfl).symm]
  refine Finset.sum_congr rfl fun k _ => ?_
  rw [lhsIdx_transposedRhs, rhsIdx_transposedRhs]

/-- On the extended reals a `tpu.matmul` of `A : M×K` and `B : N×K` contracting the last axes, into the zero accumulator,
    read at `(p, c)`, is `∑ k, A (p, k) * B (c, k)`. -/
theorem matmul_transposedRhs_zero_apply {φ₁ φ₂ : FTy} (prec : Option ContractPrecision)
    (A : FVec Ideal ⟨2, ![M, K]⟩ φ₁) (B : FVec Ideal ⟨2, ![N, K]⟩ φ₂) (p : Fin M) (c : Fin N) :
    FloatOps.matmul (DotDims.transposedRhs M K N) prec A B (constant ⟨2, ![M, N]⟩ .f32 0x00000000#32) (ix2 p c)
      = ∑ k : Fin K, A (ix2 p k) * B (ix2 c k) :=
  (Ideal.matmul_constant_zero_apply (DotDims.transposedRhs M K N) prec A B (ix2 p c)).trans
    (sum_transposedRhs (fun i j => A i * B j) p c)

end Cert.Lib.GramDot

end
-- ==== Proof.LibPlainDot.lean ====
/-
  A plain matrix product read at an entry. For the dimension numbers of `M×K` by `K×N` with no batch axis
  (`DotDims.plain M K N`: the left operand contracted on its columns, the right on its rows), the sum over
  the one-axis contraction index of any function of the two operand indices is the sum over `k : Fin K` of
  that function at `(p, k)` and `(k, c)` (`sum_plain`). Hence, on the extended reals, a `tpu.matmul` into
  the zero accumulator and a host `dot_general`, read at `(p, c)`, are both `∑ k, A (p, k) * B (k, c)`
  (`matmul_plain_zero_apply`, `dotGeneral_plain_apply`), for every `M`, `K`, `N`.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

variable {M K N : Nat}

/-- The left operand's index at output `(p, c)` and contraction coordinate `k` is `(p, k)`. -/
theorem lhsIdx_plain (p : Fin M) (c : Fin N) (k : Fin K) :
    (DotDims.plain M K N).lhsIdx (ix2 p c) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p c) _).trans hk

/-- The right operand's index at output `(p, c)` and contraction coordinate `k` is `(k, c)`. -/
theorem rhsIdx_plain (p : Fin M) (c : Fin N) (k : Fin K) :
    (DotDims.plain M K N).rhsIdx (ix2 p c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 p c) _).trans hk
  | ⟨1, _⟩ => rfl

/-- A sum over the contraction index of a plain product's dimension numbers, of any function of the two
    operand indices, is the sum over the shared axis's coordinate. -/
theorem sum_plain {β : Type*} [AddCommMonoid β]
    (f : (⟨2, ![M, K]⟩ : Shape).Idx → (⟨2, ![K, N]⟩ : Shape).Idx → β) (p : Fin M) (c : Fin N) :
    ∑ q : (DotDims.plain M K N).contr.Idx,
        f ((DotDims.plain M K N).lhsIdx (ix2 p c) q) ((DotDims.plain M K N).rhsIdx (ix2 p c) q)
      = ∑ k : Fin K, f (ix2 p k) (ix2 k c) := by
  rw [← Equiv.sum_comp (contrEquiv1 (DotDims.plain M K N) K rfl rfl).symm]
  refine Finset.sum_congr rfl fun k _ => ?_
  rw [lhsIdx_plain, rhsIdx_plain]

/-- On the extended reals a `tpu.matmul` of `A : M×K` and `B : K×N` into the zero accumulator, read at
    `(p, c)`, is `∑ k, A (p, k) * B (k, c)`. -/
theorem matmul_plain_zero_apply {φ₁ φ₂ : FTy} (prec : Option ContractPrecision)
    (A : FVec Ideal ⟨2, ![M, K]⟩ φ₁) (B : FVec Ideal ⟨2, ![K, N]⟩ φ₂) (p : Fin M) (c : Fin N) :
    FloatOps.matmul (DotDims.plain M K N) prec A B (constant ⟨2, ![M, N]⟩ .f32 0x00000000#32) (ix2 p c)
      = ∑ k : Fin K, A (ix2 p k) * B (ix2 k c) :=
  (Ideal.matmul_constant_zero_apply (DotDims.plain M K N) prec A B (ix2 p c)).trans
    (sum_plain (fun i j => A i * B j) p c)

/-- On the extended reals a host `dot_general` of `A : M×K` and `B : K×N`, read at `(p, c)`, is the
    same sum, whatever the schedule. -/
theorem dotGeneral_plain_apply {φ₁ φ₂ : FTy} (prec : Option ContractPrecision) (sched : HostSchedule)
    (A : FVec Ideal ⟨2, ![M, K]⟩ φ₁) (B : FVec Ideal ⟨2, ![K, N]⟩ φ₂) (p : Fin M) (c : Fin N) :
    FloatOps.dotGeneral (DotDims.plain M K N) prec sched A B (ix2 p c)
      = ∑ k : Fin K, A (ix2 p k) * B (ix2 k c) :=
  (Ideal.dotGeneral_apply (DotDims.plain M K N) prec sched A B (ix2 p c)).trans
    (sum_plain (fun i j => A i * B j) p c)

end Cert.Lib.PlainDot

end
-- ==== Proof.Body.lean ====
/-
  What the kernel body stores, read at an entry: the attention row function of the loaded blocks.

  The body is a composition of five matrix-valued steps: the scores (the query block scaled by 1/8 times the
  transposed key block), each row's maximum broadcast back over the row, the exponential of the difference, each
  row's sum broadcast back over the row, and the quotient times the value block. Each step is read at an entry
  (r, k) in terms of row r alone, and the readings compose to the row function of the specification.
-/
import proofs.«134918_j21036749816279_2_alg».proof.Proof.Gen.KernelIdeal.Skeleton
import proofs.«134918_j21036749816279_2_alg».proof.Proof.Spec
import proofs.«134918_j21036749816279_2_alg».proof.Proof.LibKeepdims
import proofs.«134918_j21036749816279_2_alg».proof.Proof.LibGramDot
import proofs.«134918_j21036749816279_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Attention.Body

open Idealize.ShloMosaic Idealize.ShloMosaic.ValueIdx Cert.KernelIdeal Cert.KernelIdeal.Gen Cert.Attention

/-! ## The body's steps, named -/

/-- The scores: the query block, its unit axis dropped and scaled by 1/8, times the transposed key block. -/
def scoresMat (x0 : Vec Ideal S1x512x64 .f32) (x1 : Vec Ideal S1x2048x64 .f32) : FVec Ideal S512x2048 .f32 :=
  matmul dot_S512x64_S2048x64_S512x2048_1_1_0_0_n_n none
    (truncf .bf16 (mulf (shapeCast S512x64 x0 shapeCasts_S1x512x64_S512x64)
      (broadcast S512x64 (Scalar.ofBits .f32 0x3E000000#32))) bitsLt_bf16_f32)
    (truncf .bf16 (shapeCast S2048x64 x1 shapeCasts_S1x2048x64_S2048x64) bitsLt_bf16_f32)
    (constant S512x2048 .f32 0x00000000#32)

/-- Each row's maximum from −∞, kept as a column and broadcast back over the row. -/
def maxCol (s : FVec Ideal S512x2048 .f32) : FVec Ideal S512x2048 .f32 :=
  broadcastTo S512x2048
    (shapeCast S512x1 (multiReduction .maximumf [1] S512 s 0xFF800000#32 reduces_S512x2048_S512 (.inl rfl) rfl)
      shapeCasts_S512_S512x1) broadcasts_S512x1_S512x2048

/-- The exponential of each entry minus its row's maximum. -/
def expMat (s : FVec Ideal S512x2048 .f32) : FVec Ideal S512x2048 .f32 := exp (subf s (maxCol s))

/-- Each row's sum from 0, kept as a column and broadcast back over the row. -/
def sumCol (e : FVec Ideal S512x2048 .f32) : FVec Ideal S512x2048 .f32 :=
  broadcastTo S512x2048
    (shapeCast S512x1 (multiReduction .add [1] S512 e 0x00000000#32 reduces_S512x2048_S512 (.inl rfl) rfl)
      shapeCasts_S512_S512x1) broadcasts_S512x1_S512x2048

/-- Each entry divided by its row's sum. -/
def probMat (e : FVec Ideal S512x2048 .f32) : FVec Ideal S512x2048 .bf16 :=
  truncf .bf16 (divf e (sumCol e)) bitsLt_bf16_f32

/-- The body is the composition of the steps: the quotient matrix times the value block, the unit axis put back. -/
theorem k0_pay1_eq (x0 : Vec Ideal S1x512x64 .f32) (x1 x2 : Vec Ideal S1x2048x64 .f32) :
    k0_pay1 (F := Ideal) x0 x1 x2
      = shapeCast S1x512x64
          (matmul dot_S512x2048_S2048x64_S512x64_1_0_0_1_n_n none (probMat (expMat (scoresMat x0 x1)))
            (truncf .bf16 (shapeCast S2048x64 x2 shapeCasts_S1x2048x64_S2048x64) bitsLt_bf16_f32)
            (constant S512x64 .f32 0x00000000#32))
          shapeCasts_S512x64_S1x512x64 := rfl

/-! ## Each step read at an entry -/

/-- The exponential of a vector, read at an index. -/
theorem exp_apply {s : Shape} (v : FVec Ideal s .f32) (i : s.Idx) : (exp v : FVec Ideal s .f32) i = Ideal.exp (v i) := rfl

/-- Entry (r, k) of the scores is the scaled inner product of query row r with key row k. -/
theorem scoresMat_apply (x0 : Vec Ideal S1x512x64 .f32) (x1 : Vec Ideal S1x2048x64 .f32) (r : Fin 512) (k : Fin 2048) :
    scoresMat x0 x1 (ix2 r k)
      = score (fun d' => x0 (ix3 (0 : Fin 1) r d')) (fun k' d' => x1 (ix3 (0 : Fin 1) k' d')) k := by
  unfold scoresMat
  refine (Cert.Lib.GramDot.matmul_transposedRhs_zero_apply (M := 512) (K := 64) (N := 2048) none _ _ r k).trans ?_
  unfold score
  refine Finset.sum_congr rfl fun d' _ => ?_
  rw [truncf_apply, truncf_apply, mulf_apply, broadcast_apply, shapeCast_1ab_ab_apply, shapeCast_1ab_ab_apply]
  rfl

/-- Entry (r, k) of the broadcast row maxima is the fold of max from −∞ over row r. -/
theorem maxCol_apply (s : FVec Ideal S512x2048 .f32) (r : Fin 512) (k : Fin 2048) :
    maxCol s (ix2 r k) = (Finset.univ : Finset (Fin 2048)).fold max negInf (fun k' => s (ix2 r k')) := by
  unfold maxCol
  refine (Cert.Lib.Keepdims.broadcastTo_a1_ab_apply _ _ r k).trans ?_
  refine (Cert.Lib.Keepdims.shapeCast_a_a1_apply _ _ r (0 : Fin 1)).trans ?_
  refine (Ideal.multiReduction_maximumf_single s 0xFF800000#32 reduces_S512x2048_S512 (.inl rfl) rfl (ix1 r)).trans ?_
  have e : (s ∘ reduces_S512x2048_S512.lift (ix1 r) : Fin 2048 → EReal) = fun k' => s (ix2 r k') :=
    funext fun k' => congrArg s (Cert.Lib.Keepdims.lift_lastAxis reduces_S512x2048_S512 r k')
  exact congrArg (fun f => (Finset.univ : Finset (Fin 2048)).fold max negInf f) e

/-- Entry (r, k) of the broadcast row sums is the sum of row r. -/
theorem sumCol_apply (e : FVec Ideal S512x2048 .f32) (r : Fin 512) (k : Fin 2048) :
    sumCol e (ix2 r k) = ∑ k' : Fin 2048, e (ix2 r k') := by
  unfold sumCol
  refine (Cert.Lib.Keepdims.broadcastTo_a1_ab_apply _ _ r k).trans ?_
  refine (Cert.Lib.Keepdims.shapeCast_a_a1_apply _ _ r (0 : Fin 1)).trans ?_
  exact Cert.Lib.Keepdims.rowSum_apply e reduces_S512x2048_S512 (.inl rfl) rfl r

/-- When row r of a matrix is the scores of a query row, row r of its exponential step is the weights. -/
theorem expMat_apply (q : Fin 64 → EReal) (K : Fin 2048 → Fin 64 → EReal) (s : FVec Ideal S512x2048 .f32) (r : Fin 512)
    (hs : ∀ k, s (ix2 r k) = score q K k) (k : Fin 2048) : expMat s (ix2 r k) = weight q K k := by
  unfold expMat weight rowMax
  rw [exp_apply, subf_apply, maxCol_apply, hs k, (funext hs : (fun k' => s (ix2 r k')) = score q K)]

/-- When row r of a matrix is the weights of a query row, row r of its quotient step is the weights over their total. -/
theorem probMat_apply (q : Fin 64 → EReal) (K : Fin 2048 → Fin 64 → EReal) (e : FVec Ideal S512x2048 .f32) (r : Fin 512)
    (he : ∀ k, e (ix2 r k) = weight q K k) (k : Fin 2048) :
    probMat e (ix2 r k) = Ideal.div (weight q K k) (total q K) := by
  unfold probMat total
  rw [truncf_apply, divf_apply, sumCol_apply, he k]
  exact congrArg (Ideal.div (weight q K k)) (Finset.sum_congr rfl fun k' _ => he k')

/-! ## The body at an entry -/

/-- The stored block at (0, r, d) is the attention row function of query row r of the query block and of the key
    and value blocks. -/
theorem body_apply (x0 : Vec Ideal S1x512x64 .f32) (x1 x2 : Vec Ideal S1x2048x64 .f32) (r : Fin 512) (d : Fin 64) :
    k0_pay1 (F := Ideal) x0 x1 x2 (ix3 (0 : Fin 1) r d)
      = attnRow (fun d' => x0 (ix3 (0 : Fin 1) r d')) (fun k d' => x1 (ix3 (0 : Fin 1) k d'))
          (fun k d' => x2 (ix3 (0 : Fin 1) k d')) d := by
  rw [k0_pay1_eq]
  refine (shapeCast_ab_1ab_apply _ _ (0 : Fin 1) r d).trans ?_
  refine (Cert.Lib.PlainDot.matmul_plain_zero_apply (M := 512) (K := 2048) (N := 64) none _ _ r d).trans ?_
  unfold attnRow
  refine Finset.sum_congr rfl fun k _ => ?_
  rw [probMat_apply _ _ _ r (expMat_apply _ _ _ r (scoresMat_apply x0 x1 r)) k, truncf_apply, shapeCast_1ab_ab_apply]

end Cert.Attention.Body

end
-- ==== Proof.Blocks.lean ====
/-
  From blocks to the array. Grid point (g, j) of the 32 × 4 grid works on head g (batch and head merged) and on
  query rows 512·j … 512·j + 511: it reads that block of 512 query rows and the head's whole key and value
  matrices, and writes back the same 512 rows of the output. Every row of every head is written by exactly one
  point, and what a point writes is the attention row function of its query row and its head's keys and values,
  so the output array after the region is the attention function of the three arrays the region reads.
-/
import proofs.«134918_j21036749816279_2_alg».proof.Proof.Gen.KernelIdeal.Frame
import proofs.«134918_j21036749816279_2_alg».proof.Proof.Body
import proofs.«134918_j21036749816279_2_alg».proof.Proof.Spec
import Idealize.ShloMosaic.Lib.Pipeline.Value
import Idealize.ShloMosaic.Lib.ValueIdx

set_option maxRecDepth 16384

noncomputable section

namespace Cert.Attention.Blocks

open Cert.KernelIdeal Cert.KernelIdeal.Gen Idealize.ShloMosaic Idealize.ShloMosaic.TcCoe Idealize.SL.Sem
open Idealize.ShloMosaic.ValueIdx Cert.Attention
open Idealize.ShloMosaic.Pipeline (Dat)

variable (m : (ℓ : Loc nD τ sig) → Buf (Elt Ideal) ℓ) (ρ : Dev nD → PrngReg)

theorem zeroOffsets : (![0, 0, 0] : Fin 3 → Nat) = fun _ => 0 := funext fun a => by fin_cases a <;> rfl

/-- A stored block read at any of its indices: the row function of that index's query row. -/
theorem blockRow (x0 : Vec Ideal S1x512x64 .f32) (x1 x2 : Vec Ideal S1x2048x64 .f32) (j : S1x512x64.Idx) :
    k0_pay1 (F := Ideal) x0 x1 x2 j
      = attnRow (fun d' => x0 (ix3 (0 : Fin 1) (j 1) d')) (fun k d' => x1 (ix3 (0 : Fin 1) k d'))
          (fun k d' => x2 (ix3 (0 : Fin 1) k d')) (j 2) := by
  obtain ⟨u, r, d, rfl⟩ : ∃ (u : Fin 1) (r : Fin 512) (d : Fin 64), j = ix3 u r d := ⟨j 0, j 1, j 2, eq_ix3 j⟩
  obtain rfl : u = 0 := Subsingleton.elim _ _
  exact Body.body_apply x0 x1 x2 r d

/-- Where the four windows' blocks sit at a grid point: the query and output blocks at (head, row block, 0), the
    key and value blocks at (head, 0, 0). -/
theorem idx_facts : ∀ t : Fin cfg0.N,
    win0_0.index t (0 : Fin 3) = win0_3.index t (0 : Fin 3)
    ∧ win0_0.index t (1 : Fin 3) = win0_3.index t (1 : Fin 3)
    ∧ win0_0.index t (2 : Fin 3) = 0
    ∧ win0_3.index t (2 : Fin 3) = 0
    ∧ win0_1.index t (0 : Fin 3) = win0_3.index t (0 : Fin 3)
    ∧ win0_1.index t (1 : Fin 3) = 0
    ∧ win0_1.index t (2 : Fin 3) = 0
    ∧ win0_2.index t (0 : Fin 3) = win0_3.index t (0 : Fin 3)
    ∧ win0_2.index t (1 : Fin 3) = 0
    ∧ win0_2.index t (2 : Fin 3) = 0
    ∧ win0_3.index t (0 : Fin 3) ≤ 31
    ∧ win0_3.index t (1 : Fin 3) ≤ 3 :=
  (by decide +kernel : ∀ t : Fin grid0.N, _)

/-- Every (head, row block) is some grid point's. -/
theorem idx_onto : ∀ (g : Fin 32) (j : Fin 4), ∃ t : Fin cfg0.N, win0_3.index t = ![g.val, j.val, 0] :=
  (by decide +kernel : ∀ (g : Fin 32) (j : Fin 4), ∃ t : Fin grid0.N, win0_3.index t = ![g.val, j.val, 0])

/-- What a grid point writes back is its block of the attention function of the arrays the region reads. -/
theorem flushed_eq (c : Dev nD) (t : Fin cfg0.N) :
    (dats m 0 c).flushed 3 t
      = ((cfg0.win 3).blk t).view.read (Elt Ideal) (G3 (V m c main_v0) (V m c main_v1) (V m c main_v2)) := by
  show (cfg0.win 3).cut (grid0.coords t) ((dats m 0 c).after 3 t) = _
  rw [after0_3]
  unfold out0_3
  rw [View.canon_unit_zero zeroOffsets]
  simp only [View.ld_unit_zero (S := S1x512x64) zeroOffsets, View.ld_unit_zero (S := S1x2048x64) zeroOffsets]
  obtain ⟨e00, e01, e02, e32, e10, e11, e12, e20, e21, e22, b0, b1⟩ := idx_facts t
  funext j
  show k0_pay1 (F := Ideal) (iblk m c 0 t) (iblk m c 1 t) (iblk m c 2 t) j
      = G3 (V m c main_v0) (V m c main_v1) (V m c main_v2) (((cfg0.win 3).blk t).view.emb j)
  refine (blockRow (iblk m c 0 t) (iblk m c 1 t) (iblk m c 2 t) j).trans ?_
  have hj0 : (j 0).val < 1 := (j 0).isLt
  have i0 : ∀ d' : Fin 64, ((cfg0.win 0).blk t).view.emb (ix3 (0 : Fin 1) (j 1) d')
      = ix3 (n0 := 32) (n1 := 2048) (n2 := 64) ((((cfg0.win 3).blk t).view.emb j) 0) ((((cfg0.win 3).blk t).view.emb j) 1) d' := by
    intro d'; funext a; apply Fin.ext
    match a with
    | ⟨0, _⟩ => show win0_0.index t (0 : Fin 3) * 1 + 1 * 0 = win0_3.index t (0 : Fin 3) * 1 + 1 * (j 0).val; omega
    | ⟨1, _⟩ => show win0_0.index t (1 : Fin 3) * 512 + 1 * (j 1).val = win0_3.index t (1 : Fin 3) * 512 + 1 * (j 1).val; omega
    | ⟨2, _⟩ => show win0_0.index t (2 : Fin 3) * 64 + 1 * d'.val = d'.val; omega
  have i1 : ∀ (k : Fin 2048) (d' : Fin 64), ((cfg0.win 1).blk t).view.emb (ix3 (0 : Fin 1) k d')
      = ix3 (n0 := 32) (n1 := 2048) (n2 := 64) ((((cfg0.win 3).blk t).view.emb j) 0) k d' := by
    intro k d'; funext a; apply Fin.ext
    match a with
    | ⟨0, _⟩ => show win0_1.index t (0 : Fin 3) * 1 + 1 * 0 = win0_3.index t (0 : Fin 3) * 1 + 1 * (j 0).val; omega
    | ⟨1, _⟩ => show win0_1.index t (1 : Fin 3) * 2048 + 1 * k.val = k.val; omega
    | ⟨2, _⟩ => show win0_1.index t (2 : Fin 3) * 64 + 1 * d'.val = d'.val; omega
  have i2 : ∀ (k : Fin 2048) (d' : Fin 64), ((cfg0.win 2).blk t).view.emb (ix3 (0 : Fin 1) k d')
      = ix3 (n0 := 32) (n1 := 2048) (n2 := 64) ((((cfg0.win 3).blk t).view.emb j) 0) k d' := by
    intro k d'; funext a; apply Fin.ext
    match a with
    | ⟨0, _⟩ => show win0_2.index t (0 : Fin 3) * 1 + 1 * 0 = win0_3.index t (0 : Fin 3) * 1 + 1 * (j 0).val; omega
    | ⟨1, _⟩ => show win0_2.index t (1 : Fin 3) * 2048 + 1 * k.val = k.val; omega
    | ⟨2, _⟩ => show win0_2.index t (2 : Fin 3) * 64 + 1 * d'.val = d'.val; omega
  have i3 : (j 2 : Fin 64) = (((cfg0.win 3).blk t).view.emb j) 2 := by
    apply Fin.ext
    show (j 2).val = win0_3.index t (2 : Fin 3) * 64 + 1 * (j 2).val; omega
  have hq : (fun d' : Fin 64 => iblk m c 0 t (ix3 (0 : Fin 1) (j 1) d'))
      = fun d' => V m c main_v0 (ix3 (n0 := 32) (n1 := 2048) (n2 := 64) ((((cfg0.win 3).blk t).view.emb j) 0) ((((cfg0.win 3).blk t).view.emb j) 1) d') :=
    funext fun d' => (show iblk m c 0 t (ix3 (0 : Fin 1) (j 1) d') = V m c main_v0 (((cfg0.win 0).blk t).view.emb (ix3 (0 : Fin 1) (j 1) d')) from rfl).trans
      (congrArg (V m c main_v0) (i0 d'))
  have hk : (fun (k : Fin 2048) (d' : Fin 64) => iblk m c 1 t (ix3 (0 : Fin 1) k d'))
      = fun k d' => V m c main_v1 (ix3 (n0 := 32) (n1 := 2048) (n2 := 64) ((((cfg0.win 3).blk t).view.emb j) 0) k d') :=
    funext fun k => funext fun d' => (show iblk m c 1 t (ix3 (0 : Fin 1) k d') = V m c main_v1 (((cfg0.win 1).blk t).view.emb (ix3 (0 : Fin 1) k d')) from rfl).trans
      (congrArg (V m c main_v1) (i1 k d'))
  have hv : (fun (k : Fin 2048) (d' : Fin 64) => iblk m c 2 t (ix3 (0 : Fin 1) k d'))
      = fun k d' => V m c main_v2 (ix3 (n0 := 32) (n1 := 2048) (n2 := 64) ((((cfg0.win 3).blk t).view.emb j) 0) k d') :=
    funext fun k => funext fun d' => (show iblk m c 2 t (ix3 (0 : Fin 1) k d') = V m c main_v2 (((cfg0.win 2).blk t).view.emb (ix3 (0 : Fin 1) k d')) from rfl).trans
      (congrArg (V m c main_v2) (i2 k d'))
  rw [hq, hk, hv, i3]
  rfl

/-- An index of the output array is in a point's block iff each coordinate is in the block's range on its axis. -/
theorem mem_blk (t : Fin cfg0.N) (i : S32x2048x64.Idx) :
    i ∈ ((cfg0.win 3).blk t).view.set ↔ ∀ a : Fin 3, win0_3.index t a * S1x512x64.size a ≤ (i a).val ∧ (i a).val < win0_3.index t a * S1x512x64.size a + S1x512x64.size a := by
  show i ∈ ((View.whole main_v3).slice (win0_3.rect t)).set ↔ _
  rw [View.set_slice_whole, Rect.mem_set_unit]
  exact Iff.rfl

/-- Every index of the output array is in the block of the point of its head and of its row's block of 512. -/
theorem cover (i : S32x2048x64.Idx) :
    ∃ t : Fin cfg0.N, (cfg0.win 3).flush t = true ∧ i ∈ ((cfg0.win 3).blk t).view.set := by
  have hi0 : (i 0).val < 32 := (i 0).isLt
  have hi1 : (i 1).val < 2048 := (i 1).isLt
  have hi2 : (i 2).val < 64 := (i 2).isLt
  obtain ⟨t, ht⟩ := idx_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 64 ≤ (i 2).val ∧ (i 2).val < win0_3.index t (2 : Fin 3) * 64 + 64; omega

/-- The output array after the region is the attention function of the three arrays the region reads. -/
theorem final (c : Dev nD) :
    (dats m 0 c).arrAt 3 cfg0.N = G3 (V m c main_v0) (V m c main_v1) (V m c main_v2) :=
  (dats m 0 c).arrAt_eq_of_cover 3 _ (fun t _ => flushed_eq m c t) cover

end Cert.Attention.Blocks

end
-- ==== Proof.LibMergeHeads.lean ====
/-
  A reshape that merges or splits the two LEADING axes of a rank-4 array, read at coordinates: [a, b, c, d]
  reshaped to [n, c, d] (n = a·b) reads, at (g, r, e) with g = p·b + q, the operand at (p, q, r, e)
  (`shapeCast_abcd_ncd_apply`), and [n, c, d] reshaped to [a, b, c, d] reads, at (p, q, r, e), the operand at
  (p·b + q, r, e) (`shapeCast_ncd_abcd_apply`) — batch and head merged into one axis and split again, as attention
  kernels do around their grid. Both are the library's row-major lemma with the positions written out.
-/
import Idealize.ShloMosaic.Lib.Pipeline.Value
import Idealize.ShloMosaic.Lib.ValueIdx

namespace Cert.Lib.MergeHeads

open Idealize.ShloMosaic Idealize.ShloMosaic.ValueIdx

variable {α : Type}

/-- [a, b, c, d] reshaped to [n, c, d], read at (g, r, e) where g = p·b + q, is the operand at (p, q, r, e). -/
theorem shapeCast_abcd_ncd_apply {a b c d n : ℕ} (x : (⟨4, ![a, b, c, d]⟩ : Shape).Idx → α)
    (hc : (⟨4, ![a, b, c, d]⟩ : Shape).ShapeCasts ⟨3, ![n, c, d]⟩) (p : Fin a) (q : Fin b) (g : Fin n)
    (hg : g.val = p.val * b + q.val) (r : Fin c) (e : Fin d) :
    shapeCast ⟨3, ![n, c, d]⟩ x hc (ix3 g r e) = x (ix4 p q r e) :=
  shapeCast_apply x hc _ _ (by
    rw [Shape.rowMajor_val_four, Shape.rowMajor_val_three]
    show ((p.val * b + q.val) * c + r.val) * d + e.val = (g.val * c + r.val) * d + e.val
    rw [hg])

/-- [n, c, d] reshaped to [a, b, c, d], read at (p, q, r, e), is the operand at (g, r, e) where g = p·b + q. -/
theorem shapeCast_ncd_abcd_apply {a b c d n : ℕ} (x : (⟨3, ![n, c, d]⟩ : Shape).Idx → α)
    (hc : (⟨3, ![n, c, d]⟩ : Shape).ShapeCasts ⟨4, ![a, b, c, d]⟩) (p : Fin a) (q : Fin b) (g : Fin n)
    (hg : g.val = p.val * b + q.val) (r : Fin c) (e : Fin d) :
    shapeCast ⟨4, ![a, b, c, d]⟩ x hc (ix4 p q r e) = x (ix3 g r e) :=
  shapeCast_apply x hc _ _ (by
    rw [Shape.rowMajor_val_four, Shape.rowMajor_val_three]
    show (g.val * c + r.val) * d + e.val = ((p.val * b + q.val) * c + r.val) * d + e.val
    rw [hg])

end Cert.Lib.MergeHeads
-- ==== Proof.Heads.lean ====
/-
  Merging batch and head into one axis, and splitting it again. A [2, 16, 2048, 64] array reshaped to
  [32, 2048, 64] reads, at head 16·b + h, what the operand holds at (b, h); the reshape back is the converse. The
  attention function works head by head, so computing it on the merged arrays and splitting the result gives the
  attention function of the unmerged arrays.
-/
import proofs.«134918_j21036749816279_2_alg».proof.Proof.Spec
import proofs.«134918_j21036749816279_2_alg».proof.Proof.LibMergeHeads
import Idealize.ShloMosaic.Lib.Pipeline.Value
import Idealize.ShloMosaic.Lib.ValueIdx

noncomputable section

namespace Cert.Attention

open Idealize.ShloMosaic Idealize.ShloMosaic.ValueIdx

variable {α : Type}

/-- The merged head number of batch b, head h. -/
abbrev headOf (b : Fin 2) (h : Fin 16) : Fin 32 := ⟨16 * b.val + h.val, by omega⟩

/-- [2, 16, 2048, 64] reshaped to [32, 2048, 64], read at (16·b + h, r, d), is the operand at (b, h, r, d). -/
theorem merge_apply (x : (⟨4, ![2, 16, 2048, 64]⟩ : Shape).Idx → α)
    (hc : (⟨4, ![2, 16, 2048, 64]⟩ : Shape).ShapeCasts ⟨3, ![32, 2048, 64]⟩) (b : Fin 2) (h : Fin 16) (r : Fin 2048) (d : Fin 64) :
    shapeCast ⟨3, ![32, 2048, 64]⟩ x hc (ix3 (headOf b h) r d) = x (ix4 b h r d) :=
  Cert.Lib.MergeHeads.shapeCast_abcd_ncd_apply x hc b h (headOf b h) (by show 16 * b.val + h.val = b.val * 16 + h.val; omega) r d

/-- [32, 2048, 64] reshaped to [2, 16, 2048, 64], read at (b, h, r, d), is the operand at (16·b + h, r, d). -/
theorem split_apply (x : (⟨3, ![32, 2048, 64]⟩ : Shape).Idx → α)
    (hc : (⟨3, ![32, 2048, 64]⟩ : Shape).ShapeCasts ⟨4, ![2, 16, 2048, 64]⟩) (b : Fin 2) (h : Fin 16) (r : Fin 2048) (d : Fin 64) :
    shapeCast ⟨4, ![2, 16, 2048, 64]⟩ x hc (ix4 b h r d) = x (ix3 (headOf b h) r d) :=
  Cert.Lib.MergeHeads.shapeCast_ncd_abcd_apply x hc b h (headOf b h) (by show 16 * b.val + h.val = b.val * 16 + h.val; omega) r d

/-- The attention function of the merged arrays, split back, is the attention function of the arrays. -/
theorem split_G3_merge (Q K V : (⟨4, ![2, 16, 2048, 64]⟩ : Shape).Idx → EReal)
    (h1 : (⟨4, ![2, 16, 2048, 64]⟩ : Shape).ShapeCasts ⟨3, ![32, 2048, 64]⟩)
    (h2 : (⟨3, ![32, 2048, 64]⟩ : Shape).ShapeCasts ⟨4, ![2, 16, 2048, 64]⟩) :
    shapeCast ⟨4, ![2, 16, 2048, 64]⟩
        (G3 (shapeCast ⟨3, ![32, 2048, 64]⟩ Q h1) (shapeCast ⟨3, ![32, 2048, 64]⟩ K h1) (shapeCast ⟨3, ![32, 2048, 64]⟩ V h1)) h2
      = G4 Q K V := by
  funext i
  obtain ⟨b, h, q, d, rfl⟩ : ∃ (b : Fin 2) (h : Fin 16) (q : Fin 2048) (d : Fin 64), i = ix4 b h q d :=
    ⟨i 0, i 1, i 2, i 3, eq_ix4 i⟩
  rw [split_apply]
  show attnRow (fun d' => shapeCast ⟨3, ![32, 2048, 64]⟩ Q h1 (ix3 (headOf b h) q d'))
      (fun k d' => shapeCast ⟨3, ![32, 2048, 64]⟩ K h1 (ix3 (headOf b h) k d'))
      (fun k d' => shapeCast ⟨3, ![32, 2048, 64]⟩ V h1 (ix3 (headOf b h) k d')) d
    = attnRow (fun d' => Q (ix4 b h q d')) (fun k d' => K (ix4 b h k d')) (fun k d' => V (ix4 b h k d')) d
  simp only [merge_apply]

end Cert.Attention

end
-- ==== Proof.Tail.lean ====
/-
  The whole kernel program's result. Before the region the three arguments are reshaped, merging batch and head
  into one axis of 32 heads; the region leaves the attention function of the merged arrays in its output array;
  after the region that array is reshaped back. So the program's result is the attention function of its three
  arguments, and the arguments are left as they were.
-/
import proofs.«134918_j21036749816279_2_alg».proof.Proof.Gen.KernelIdeal.Frame
import proofs.«134918_j21036749816279_2_alg».proof.Proof.Blocks
import proofs.«134918_j21036749816279_2_alg».proof.Proof.Heads
import proofs.«134918_j21036749816279_2_alg».proof.Proof.Spec
import Idealize.ShloMosaic.Lib.Pipeline.Value
import Idealize.ShloMosaic.Lib.StableHlo.Run

set_option maxRecDepth 16384

noncomputable section

namespace Cert.Attention.KernelRun

open Cert.KernelIdeal Cert.KernelIdeal.Gen Idealize.ShloMosaic Idealize.ShloMosaic.TcCoe Idealize.SL.Sem
open Idealize.ShloMosaic.ValueIdx Cert.Attention Idealize.ShloMosaic.StableHlo
open Idealize.ShloMosaic.Pipeline (Dat)

variable (m : (ℓ : Loc nD τ sig) → Buf (Elt Ideal) ℓ) (ρ : Dev nD → PrngReg)

/-- The region finds, as its query array, the first argument with batch and head merged. -/
theorem V_main_v0 (c : Dev nD) : (V m c main_v0 : S32x2048x64.Idx → EReal)
    = shapeCast S32x2048x64 (m ((c : Thread nD τ).loc main_arg0)) shapeCasts_S2x16x2048x64_S32x2048x64 := by
  show StableHlo.after hostOps0 (fun b => m (c, b)) (Proc.devRef .tc main_v0) = _
  after_results
  rfl

/-- Its key array is the second argument with batch and head merged. -/
theorem V_main_v1 (c : Dev nD) : (V m c main_v1 : S32x2048x64.Idx → EReal)
    = shapeCast S32x2048x64 (m ((c : Thread nD τ).loc main_arg1)) shapeCasts_S2x16x2048x64_S32x2048x64 := by
  show StableHlo.after hostOps0 (fun b => m (c, b)) (Proc.devRef .tc main_v1) = _
  after_results
  rfl

/-- Its value array is the third argument with batch and head merged. -/
theorem V_main_v2 (c : Dev nD) : (V m c main_v2 : S32x2048x64.Idx → EReal)
    = shapeCast S32x2048x64 (m ((c : Thread nD τ).loc main_arg2)) shapeCasts_S2x16x2048x64_S32x2048x64 := by
  show StableHlo.after hostOps0 (fun b => m (c, b)) (Proc.devRef .tc main_v2) = _
  after_results
  rfl

/-- The program's result buffer after the reshape that follows the region. -/
theorem tail_v4 (c : Dev nD) :
    Pipeline.afterTail₀ cfgs (dats m) 0 (V0 m) [hostOps1] c main_v4
      = G4 (m ((c : Thread nD τ).loc main_arg0)) (m ((c : Thread nD τ).loc main_arg1)) (m ((c : Thread nD τ).loc main_arg2)) := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v3)
      = G3 (V m c main_v0) (V m c main_v1) (V m c main_v2) :=
    (Pipeline.withArrays_arr spec0 launch0.win.arr_inj c _ _ 3).trans (Blocks.final m c)
  rw [hw, V_main_v0, V_main_v1, V_main_v2]
  exact split_G3_merge _ _ _ _ _

/-- The kernel program's run: every weakly fair execution terminates with the result buffer at the attention
    function of the three arguments, and the arguments as they were. -/
theorem run : θ_run defs (onTc (τ := τ) (main (F := Ideal))) ⟨m, fun _ => 0, ρ⟩ (fun r => ∀ c : Dev nD,
      r.2.mem ((c.tc : Thread nD τ).loc main_v4)
        = G4 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v4 (Pipeline.mem_restRefs_of main_v4 (by decide) (by decide))).trans (tail_v4 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.Attention.KernelRun

end
-- ==== Proof.RefIsSpec.lean ====
/-
  The reference program's result, entry by entry, is the attention function of its three arguments.

  The reference computes, for each batch b, head h and query position q:
    the scores     s k = Σ_d (Q[b,h,q,d] / 8) · K[b,h,k,d]                  (a contraction over the feature axis),
    their maximum  m   = max (−∞) (fold of max from −∞ over k of s k),
    the weights    w k = exp (s k − m),
    their sum      t   = 0 + Σ_k w k,
    the result     o d = Σ_k (w k / t) · V[b,h,k,d]                          (a contraction over the key axis).
  Each stage is read at explicit coordinates (b, h, q, ·), innermost first, and identified with the row
  function's piece of the same name: the quotient by 8 is the product with 1/8, the outer maximum with −∞ is
  the identity, and the sum's initial value is zero.
-/
import proofs.«134918_j21036749816279_2_alg».proof.Proof.Gen.ReferenceIdeal.Read
import proofs.«134918_j21036749816279_2_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.Attention.Ref

open Idealize.ShloMosaic Idealize.ShloMosaic.ValueIdx Cert.ReferenceIdeal Cert.ReferenceIdeal.Read Cert.Attention

/-- The query row at batch b, head h, position q: its 64 features. -/
abbrev qrow (Q : FVec Ideal S2x16x2048x64 .f32) (b : Fin 2) (h : Fin 16) (q : Fin 2048) : Fin 64 → EReal :=
  fun d => Q (ix4 b h q d)

/-- The key (or value) matrix of batch b, head h: 2048 rows of 64 features. -/
abbrev hmat (K : FVec Ideal S2x16x2048x64 .f32) (b : Fin 2) (h : Fin 16) : Fin 2048 → Fin 64 → EReal :=
  fun k d => K (ix4 b h k d)

/-! ## The scores -/

/-- The scaled query: every entry is the query's entry times one eighth. -/
theorem scaled_at (Q : FVec Ideal S2x16x2048x64 .f32) (i : S2x16x2048x64.Idx) :
    val_main_v1 (F := Ideal) Q i = Q i * eighth := by
  rw [val_main_v1_apply, val_main_v0_apply, val_main_cst_apply, Ideal.hostDivf_def]
  exact div_eight (Q i)

/-- In the first contraction the left factor of term d of entry (b, h, q, k) sits at (b, h, q, d). -/
theorem lidx_scores (b : Fin 2) (h : Fin 16) (q k : Fin 2048) (d : Fin 64) :
    lidx_main_v2 (ix4 b h q k) d = ix4 b h q d := by
  funext a; apply Fin.ext
  match a with | ⟨0, _⟩ => rfl | ⟨1, _⟩ => rfl | ⟨2, _⟩ => rfl | ⟨3, _⟩ => rfl

/-- In the first contraction the right factor of term d of entry (b, h, q, k) sits at (b, h, k, d). -/
theorem ridx_scores (b : Fin 2) (h : Fin 16) (q k : Fin 2048) (d : Fin 64) :
    ridx_main_v2 (ix4 b h q k) d = ix4 b h k d := by
  funext a; apply Fin.ext
  match a with | ⟨0, _⟩ => rfl | ⟨1, _⟩ => rfl | ⟨2, _⟩ => rfl | ⟨3, _⟩ => rfl

/-- Entry (b, h, q, k) of the first contraction is the score of query row (b, h, q) against key row k. -/
theorem scores_at (Q K : FVec Ideal S2x16x2048x64 .f32) (b : Fin 2) (h : Fin 16) (q k : Fin 2048) :
    val_main_v2 (F := Ideal) Q K (ix4 b h q k) = score (qrow Q b h q) (hmat K b h) k := by
  rw [val_main_v2_apply]
  unfold score
  refine Finset.sum_congr rfl fun d _ => ?_
  rw [scaled_at, lidx_scores, ridx_scores]

/-! ## The row maximum -/

/-- Inserting coordinate k on the last axis of (b, h, q) gives (b, h, q, k). -/
theorem lift_row (hr : S2x16x2048x2048.Reduces [3] S2x16x2048) (b : Fin 2) (h : Fin 16) (q : Fin 2048)
    (k : Fin (S2x16x2048x2048.size 3)) :
    hr.lift (ix3 b h q) k = ix4 b h q (⟨k.val, k.isLt⟩ : Fin 2048) := by
  funext c; apply Fin.ext
  fin_cases c <;> rfl

/-- The reduction with a maximum body from −∞ over the key axis, at (b, h, q), is the row's maximum. -/
theorem reduceMax_at (Q K : FVec Ideal S2x16x2048x64 .f32) (b : Fin 2) (h : Fin 16) (q : Fin 2048) :
    val_main_v3 (F := Ideal) Q K (ix3 b h q) = rowMax (qrow Q b h q) (hmat K b h) := by
  have hr : S2x16x2048x2048.Reduces [3] S2x16x2048 := by decide
  unfold val_main_v3
  rw [Host.reduce_eq_fold_single FloatOps.maximumf _ _ _ hr _ _]
  unfold rowMax
  have hf : (val_main_v2 (F := Ideal) Q K ∘ hr.lift (ix3 b h q))
      = fun k : Fin 2048 => score (qrow Q b h q) (hmat K b h) k := funext fun k => by
    show val_main_v2 (F := Ideal) Q K (hr.lift (ix3 b h q) k) = _
    rw [lift_row hr b h q k, scores_at]
    rfl
  exact congrArg (fun f => Finset.fold max negInf f (Finset.univ : Finset (Fin 2048))) hf

/-- The maximum of that reduction with a broadcast −∞ is still the row's maximum. -/
theorem rowMax_at (Q K : FVec Ideal S2x16x2048x64 .f32) (b : Fin 2) (h : Fin 16) (q : Fin 2048) :
    val_main_v5 (F := Ideal) Q K (ix3 b h q) = rowMax (qrow Q b h q) (hmat K b h) := by
  rw [val_main_v5_apply, val_main_v4_apply, val_main_cst_1_apply, reduceMax_at, Ideal.maximumf_def]
  exact max_negInf _

/-- Broadcast back along the key axis, entry (b, h, q, k) is the maximum of row (b, h, q). -/
theorem rowMax_bcast_at (Q K : FVec Ideal S2x16x2048x64 .f32) (b : Fin 2) (h : Fin 16) (q k : Fin 2048) :
    val_main_v7 (F := Ideal) Q K (ix4 b h q k) = rowMax (qrow Q b h q) (hmat K b h) := by
  rw [val_main_v7_apply, val_main_v6_apply]
  have e : idx_main_v6 (idx_main_v7 (ix4 b h q k)) = ix3 b h q := by
    funext a; apply Fin.ext
    match a with | ⟨0, _⟩ => rfl | ⟨1, _⟩ => rfl | ⟨2, _⟩ => rfl
  rw [e, rowMax_at]

/-! ## The weights and their sum -/

/-- Entry (b, h, q, k) of the exponential stage is the unnormalised weight of key k in row (b, h, q). -/
theorem weight_at (Q K : FVec Ideal S2x16x2048x64 .f32) (b : Fin 2) (h : Fin 16) (q k : Fin 2048) :
    val_main_v9 (F := Ideal) Q K (ix4 b h q k) = weight (qrow Q b h q) (hmat K b h) k := by
  rw [val_main_v9_apply, val_main_v8_apply, scores_at, rowMax_bcast_at, Ideal.hostUnary_exp_def, Ideal.subf_def]
  rfl

/-- The sum over the key axis from zero, at (b, h, q), is the row's total weight. -/
theorem total_at (Q K : FVec Ideal S2x16x2048x64 .f32) (b : Fin 2) (h : Fin 16) (q : Fin 2048) :
    val_main_v10 (F := Ideal) Q K (ix3 b h q) = total (qrow Q b h q) (hmat K b h) := by
  rw [val_main_v10_apply, val_main_cst_2_apply, Ideal.ofBits_def, Ideal.ofBits_zero_f32, zero_add]
  unfold total
  refine Finset.sum_congr rfl fun k _ => ?_
  have e : idx_main_v10 (ix3 b h q) k = ix4 b h q k := by
    funext a; apply Fin.ext
    match a with | ⟨0, _⟩ => rfl | ⟨1, _⟩ => rfl | ⟨2, _⟩ => rfl | ⟨3, _⟩ => rfl
  rw [e, weight_at]

/-- Broadcast back along the key axis, entry (b, h, q, k) is the total weight of row (b, h, q). -/
theorem total_bcast_at (Q K : FVec Ideal S2x16x2048x64 .f32) (b : Fin 2) (h : Fin 16) (q k : Fin 2048) :
    val_main_v12 (F := Ideal) Q K (ix4 b h q k) = total (qrow Q b h q) (hmat K b h) := by
  rw [val_main_v12_apply, val_main_v11_apply]
  have e : idx_main_v11 (idx_main_v12 (ix4 b h q k)) = ix3 b h q := by
    funext a; apply Fin.ext
    match a with | ⟨0, _⟩ => rfl | ⟨1, _⟩ => rfl | ⟨2, _⟩ => rfl
  rw [e, total_at]

/-- Entry (b, h, q, k) of the quotient stage is the normalised weight of key k in row (b, h, q). -/
theorem softmax_at (Q K : FVec Ideal S2x16x2048x64 .f32) (b : Fin 2) (h : Fin 16) (q k : Fin 2048) :
    val_main_v13 (F := Ideal) Q K (ix4 b h q k)
      = Ideal.div (weight (qrow Q b h q) (hmat K b h) k) (total (qrow Q b h q) (hmat K b h)) := by
  rw [val_main_v13_apply, weight_at, total_bcast_at, Ideal.hostDivf_def]

/-! ## The weighted sum of the value rows -/

/-- In the second contraction the left factor of term k of entry (b, h, q, d) sits at (b, h, q, k). -/
theorem lidx_out (b : Fin 2) (h : Fin 16) (q : Fin 2048) (d : Fin 64) (k : Fin 2048) :
    lidx_main_v14 (ix4 b h q d) k = ix4 b h q k := by
  funext a; apply Fin.ext
  match a with | ⟨0, _⟩ => rfl | ⟨1, _⟩ => rfl | ⟨2, _⟩ => rfl | ⟨3, _⟩ => rfl

/-- In the second contraction the right factor of term k of entry (b, h, q, d) sits at (b, h, k, d). -/
theorem ridx_out (b : Fin 2) (h : Fin 16) (q : Fin 2048) (d : Fin 64) (k : Fin 2048) :
    ridx_main_v14 (ix4 b h q d) k = ix4 b h k d := by
  funext a; apply Fin.ext
  match a with | ⟨0, _⟩ => rfl | ⟨1, _⟩ => rfl | ⟨2, _⟩ => rfl | ⟨3, _⟩ => rfl

/-- Entry (b, h, q, d) of the last stage is entry d of the attention output for query row (b, h, q). -/
theorem out_at (Q K V : FVec Ideal S2x16x2048x64 .f32) (b : Fin 2) (h : Fin 16) (q : Fin 2048) (d : Fin 64) :
    val_main_v14 (F := Ideal) Q K V (ix4 b h q d) = attnRow (qrow Q b h q) (hmat K b h) (hmat V b h) d := by
  rw [val_main_v14_apply]
  unfold attnRow
  refine Finset.sum_congr rfl fun k _ => ?_
  rw [lidx_out, ridx_out, softmax_at]

/-- The reference's last stage is the attention function of the three argument arrays. -/
theorem ref_eq (Q K V : FVec Ideal S2x16x2048x64 .f32) :
    val_main_v14 (F := Ideal) Q K V = G4 Q K V := by
  funext i
  obtain ⟨b, h, q, d, rfl⟩ : ∃ (b : Fin 2) (h : Fin 16) (q : Fin 2048) (d : Fin 64), i = ix4 b h q d :=
    ⟨i 0, i 1, i 2, i 3, eq_ix4 i⟩
  rw [out_at]
  rfl

end Cert.Attention.Ref

end
-- ==== Proof.lean ====
/- The proof of `Cert.Claim`: a blocked attention kernel against the plain softmax attention, on the extended reals.

   Both programs compute, for every batch b, head h and query position q of [2, 16, 2048, 64] arrays Q, K, V,
     out[b,h,q,·] = Σ_k softmax_k (Σ_d (Q[b,h,q,d] / 8) · K[b,h,k,d]) · V[b,h,k,·],
   the softmax taken as exp (s − max s) over its sum. The kernel multiplies the query by 1/8 where the reference
   divides it by 8 (one function on every extended real), the reference takes one more maximum with −∞ (the
   identity), and the kernel merges batch and head into one axis of 32 heads, works on blocks of 512 query rows
   per grid point, and splits the axis again; sums and maxima over the key axis are the same folds on both sides.

   Proof/Spec.lean states the function (the row function `attnRow`, and `G4` / `G3` over whole arrays) and the two
   laws; Proof/Body.lean reads the kernel body's stored block at an entry as `attnRow`; Proof/Blocks.lean goes from the
   blocks each grid point writes to the whole output array (`G3`); Proof/Heads.lean is the merge and split of batch
   and head; Proof/Tail.lean reads the reshapes around the region and states the kernel program's run (`G4` of the
   arguments); Proof/RefIsSpec.lean reads the reference's stages one by one as `G4`. The three frames are the
   generated frame certificates and the reference's generated run; the ideal pass rewrote nothing, so `preserves` is
   trivial; `algebraic` sets the two runs side by side at the same function of the arguments. -/
import proofs.«134918_j21036749816279_2_alg».proof.Defs
import proofs.«134918_j21036749816279_2_alg».proof.Proof.Gen.Kernel
import proofs.«134918_j21036749816279_2_alg».proof.Proof.Gen.Kernel.Skeleton
import proofs.«134918_j21036749816279_2_alg».proof.Proof.Gen.Kernel.Launch
import proofs.«134918_j21036749816279_2_alg».proof.Proof.Gen.Kernel.Points
import proofs.«134918_j21036749816279_2_alg».proof.Proof.Gen.Kernel.Frame
import proofs.«134918_j21036749816279_2_alg».proof.Proof.Gen.KernelIdeal
import proofs.«134918_j21036749816279_2_alg».proof.Proof.Gen.KernelIdeal.Skeleton
import proofs.«134918_j21036749816279_2_alg».proof.Proof.Gen.KernelIdeal.Launch
import proofs.«134918_j21036749816279_2_alg».proof.Proof.Gen.KernelIdeal.Points
import proofs.«134918_j21036749816279_2_alg».proof.Proof.Gen.KernelIdeal.Frame
import proofs.«134918_j21036749816279_2_alg».proof.Proof.Gen.ReferenceIdeal
import proofs.«134918_j21036749816279_2_alg».proof.Proof.Gen.ReferenceIdeal.Run
import proofs.«134918_j21036749816279_2_alg».proof.Proof.Gen.ReferenceIdeal.Read
import proofs.«134918_j21036749816279_2_alg».proof.Proof.Gen.Pre_finite_inputs
import proofs.«134918_j21036749816279_2_alg».proof.Proof.Spec
import proofs.«134918_j21036749816279_2_alg».proof.Proof.Tail
import proofs.«134918_j21036749816279_2_alg».proof.Proof.RefIsSpec
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten when it was read on the extended reals. -/
theorem preserves : Cert.preserves_Kernel_KernelIdeal := trivial

/-- From memories that agree on the three arguments, the kernel and the reference both end with the attention
    function of the arguments in their result buffers. -/
theorem algebraic : Cert.algebraic_KernelIdeal_ReferenceIdeal := by
  intro m ρ m' ρ' _ hagree
  refine ⟨fun c => Cert.Attention.G4
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.Attention.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.Attention.Ref.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
